-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S625x4 : Shape := ⟨2, ![625, 4]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  bcast_S_S625x4 : S_.BroadcastsInDim S625x4 (![] : Fin 0 → Fin S625x4.rank)
  reducesTo_S625x4_S_d0_1 : S625x4.ReducesTo [0, 1] S_

variable [Facts]

def fn {F : FTy → Type} [FloatOps F] (main_arg0 : FVec F S262144x4 .f32) (main_arg1 : FVec F S625x4 .f32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S625x4 .f32 := Host.absf main_arg1
  let main_cst_0 : FVec F S_ .f32 := constant S_ .f32 0x7F800000#32
  let main_v5 : FVec F S625x4 .f32 := broadcastInDim S625x4 ![] bcast_S_S625x4 main_cst_0
  let main_v6 : IVec S625x4 1 := cmpf .olt main_v4 main_v5
  let main_c_1 : IVec S_ 1 := constantI S_ 1 1#1
  let main_v7 : IVec S_ 1 := (fun x v => Host.reduce IntOp.andi x v reducesTo_S625x4_S_d0_1 h_S_) main_v6 main_c_1
  let main_v8 : IVec S_ 1 := andi main_v3 main_v7
  main_v8
-- ==== Kernel.lean ====
abbrev S262144x4 : Shape := ⟨2, ![262144, 4]⟩
abbrev S625x4 : Shape := ⟨2, ![625, 4]⟩
abbrev S4x625 : Shape := ⟨2, ![4, 625]⟩
abbrev S262144x625 : Shape := ⟨2, ![262144, 625]⟩
abbrev S4096x4 : Shape := ⟨2, ![4096, 4]⟩
abbrev S4096x625 : Shape := ⟨2, ![4096, 625]⟩
abbrev S1024x4 : Shape := ⟨2, ![1024, 4]⟩
abbrev S1024x1 : Shape := ⟨2, ![1024, 1]⟩
abbrev S1x625 : Shape := ⟨2, ![1, 625]⟩
abbrev S1024x625 : Shape := ⟨2, ![1024, 625]⟩

abbrev nBuf : Space → Nat
  | .hbm => 4
  | .vmem => 5
  | .smem => 0
  | _ => 0

abbrev bufTy : (tb : Table) → Fin (tcTables nBuf tb) → BufTy
  | .hbm, ⟨0, _⟩ => ⟨S262144x4, .f32⟩
  | .hbm, ⟨1, _⟩ => ⟨S625x4, .f32⟩
  | .hbm, ⟨2, _⟩ => ⟨S4x625, .f32⟩
  | .hbm, ⟨3, _⟩ => ⟨S262144x625, .f32⟩
  | .local _ .vmem, ⟨0, _⟩ => ⟨S4096x4, .f32⟩
  | .local _ .vmem, ⟨1, _⟩ => ⟨S4096x4, .f32⟩
  | .local _ .vmem, ⟨2, _⟩ => ⟨S4x625, .f32⟩
  | .local _ .vmem, ⟨3, _⟩ => ⟨S4096x625, .f32⟩
  | .local _ .vmem, ⟨4, _⟩ => ⟨S4096x625, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c1024_i32 : BitVec 32 := 1024#32
  let v2 : BitVec 32 := Scalar.muli c0_i32 c1024_i32
  v2
def k0_off1 (c0_i32 : BitVec 32) : Fin 2 → Nat :=
  let c1024_i32 : BitVec 32 := 1024#32
  let v2 : BitVec 32 := Scalar.muli c0_i32 c1024_i32
  let v3 : BitVec 32 := v2
  let v4 : Index := Scalar.indexCast v3
  let c0_1 : Index := 0#32
  ![v4.toNat, 0]
def k0_off2 (c0_i32 : BitVec 32) : Fin 2 → Nat :=
  let c1024_i32 : BitVec 32 := 1024#32
  let v2 : BitVec 32 := Scalar.muli c0_i32 c1024_i32
  let v3 : BitVec 32 := v2
  let v33 : Index := Scalar.indexCast v3
  let c0_2 : Index := 0#32
  ![v33.toNat, 0]
def k0_mult2 : BitVec 32 :=
  let c1_i32 : BitVec 32 := 1#32
  let c1024_i32_3 : BitVec 32 := 1024#32
  let v35 : BitVec 32 := Scalar.muli c1_i32 c1024_i32_3
  v35
def k0_mult3 : BitVec 32 :=
  let c2_i32 : BitVec 32 := 2#32
  let c1024_i32_7 : BitVec 32 := 1024#32
  let v68 : BitVec 32 := Scalar.muli c2_i32 c1024_i32_7
  v68
def k0_mult4 : BitVec 32 :=
  let c3_i32 : BitVec 32 := 3#32
  let c1024_i32_11 : BitVec 32 := 1024#32
  let v101 : BitVec 32 := Scalar.muli c3_i32 c1024_i32_11
  v101
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x625 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x625 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S625x4_S4x625_1_0 : S625x4.Transposes [1, 0] S4x625
  inb_S4x625_S4x625_0_0 : ∀ a, (![0, 0] : Fin 2 → Nat) a + S4x625.size a ≤ S4x625.size a
  h_S4x625 : 0 < S4x625.numel
  shapeCasts_S4x625_S4x625 : S4x625.ShapeCasts S4x625
  h_S1024x4 : 0 < S1024x4.numel
  slices_S1024x4_o0_0_S1024x1 : S1024x4.Slices ![0, 0] S1024x1
  slices_S4x625_o0_0_S1x625 : S4x625.Slices ![0, 0] S1x625
  broadcasts_S1024x1_S1024x625 : S1024x1.Broadcasts S1024x625
  broadcasts_S1x625_S1024x625 : S1x625.Broadcasts S1024x625
  slices_S1024x4_o0_1_S1024x1 : S1024x4.Slices ![0, 1] S1024x1
  slices_S4x625_o1_0_S1x625 : S4x625.Slices ![1, 0] S1x625
  slices_S1024x4_o0_2_S1024x1 : S1024x4.Slices ![0, 2] S1024x1
  slices_S4x625_o2_0_S1x625 : S4x625.Slices ![2, 0] S1x625
  slices_S1024x4_o0_3_S1024x1 : S1024x4.Slices ![0, 3] S1024x1
  slices_S4x625_o3_0_S1x625 : S4x625.Slices ![3, 0] S1x625
  h_S1024x625 : 0 < S1024x625.numel
  hrank0 : 0 < grid0.rank
  k0_mult1_dvd : 1024 ∣ k0_mult1.toNat
  k0_off1_inb : ∀ (r : Fin 4), ∀ a, (k0_off1 (BitVec.ofNat 32 r.val)) a + S1024x4.size a ≤ S4096x4.size a
  k0_off2_inb : ∀ (r : Fin 4), ∀ a, (k0_off2 (BitVec.ofNat 32 r.val)) a + S1024x625.size a ≤ S4096x625.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S262144x4.size a
  hwx0_0 : ∀ i : grid0.Coords, EltTy.bits .f32 = 32 ∨ (Rect.block (s := S262144x4) S4096x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x625.size a ≤ S4x625.size a
  hwx0_1 : ∀ i : grid0.Coords, EltTy.bits .f32 = 32 ∨ (Rect.block (s := S4x625) S4x625.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x625.size a ≤ S262144x625.size a
  hwx0_2 : ∀ i : grid0.Coords, EltTy.bits .f32 = 32 ∨ (Rect.block (s := S262144x625) S4096x625.size (cc0_transform_2 i) (hinb0_2 i)).WholeWords (EltTy.packing .f32)

variable [Facts₀]

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x625.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x625.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x4 : Shape := ⟨2, ![262144, 4]⟩
abbrev S625x4 : Shape := ⟨2, ![625, 4]⟩
abbrev S_ : Shape := ⟨0, ![]⟩
abbrev S262144x625 : Shape := ⟨2, ![262144, 625]⟩

abbrev nBuf : Space → Nat
  | .hbm => 8
  | .vmem => 0
  | .smem => 0
  | _ => 0

abbrev bufTy : (tb : Table) → Fin (tcTables nBuf tb) → BufTy
  | .hbm, ⟨0, _⟩ => ⟨S262144x4, .f32⟩
  | .hbm, ⟨1, _⟩ => ⟨S625x4, .f32⟩
  | .hbm, ⟨2, _⟩ => ⟨S_, .f32⟩
  | .hbm, ⟨3, _⟩ => ⟨S262144x4, .f32⟩
  | .hbm, ⟨4, _⟩ => ⟨S262144x4, .f32⟩
  | .hbm, ⟨5, _⟩ => ⟨S262144x4, .f32⟩
  | .hbm, ⟨6, _⟩ => ⟨S262144x625, .f32⟩
  | .hbm, ⟨7, _⟩ => ⟨S262144x625, .f32⟩
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S262144x4 : S_.BroadcastsInDim S262144x4 (![] : Fin 0 → Fin S262144x4.rank)
  dot_S262144x4_S625x4_S262144x625_1_1_0_0_n_n_wf : DotDims.WF S262144x4 S625x4 S262144x625 [1] [1] [0] [0] [] []

variable [Facts₀]

def dot_S262144x4_S625x4_S262144x625_1_1_0_0_n_n : DotDims S262144x4 S625x4 S262144x625 where
  lhsContracting := [1]
  rhsContracting := [1]
  lhsNonContracting := [0]
  rhsNonContracting := [0]
  lhsBatch := []
  rhsBatch := []
  wf := dot_S262144x4_S625x4_S262144x625_1_1_0_0_n_n_wf

class Facts : Prop extends Facts₀ where

variable [Facts]
-- ==== Proof.Spec.lean ====
/-
  The function both programs compute, entry by entry. For a row `x` of the data (four numbers) and a row `e` of the
  exponent table (four numbers) the entry is `exp (Σ_d log (max x_d c) · e_d)` over the extended reals, `c` the clamp
  constant: the product of the clamped `x_d` raised to the powers `e_d`, written through logarithms. The result array
  holds, at `(b, k)`, the entry of row `b` of the data and row `k` of the table.
-/
import Idealize.ShloMosaic.PureOps.Ideal
import Idealize.ShloMosaic.Lib.ValueIdx

noncomputable section

open scoped BigOperators

namespace Cert.PowerFeatures

open Idealize.ShloMosaic Idealize.ShloMosaic.ValueIdx

/-- The clamp constant: the binary value of the single-precision word, the same word in both programs. -/
def clampC : EReal := Ideal.ofBits .f32 0x3727C5AC#32

/-- Clamp from below at the constant, then take the logarithm. -/
def clog (x : EReal) : EReal := Ideal.log (max x clampC)

/-- One entry of the result from the four data entries `x` and the four exponents `e`, the four products added from
    the left. -/
def entry (x e : Fin 4 → EReal) : EReal :=
  Ideal.exp (clog (x 0) * e 0 + clog (x 1) * e 1 + clog (x 2) * e 2 + clog (x 3) * e 3)

/-- The same entry with the four products as a sum over the contracted axis: a sum over `Fin 4` IS the four terms added
    from the left, so no law of the extended reals beyond that unfolding is used. -/
theorem entry_eq_sum (x e : Fin 4 → EReal) : entry x e = Ideal.exp (∑ d : Fin 4, clog (x d) * e d) := by
  unfold entry
  rw [Fin.sum_univ_four]

/-- The whole result as one function of the two argument arrays: at `(b, k)` the entry of row `b` of `X` and row `k`
    of `E`. -/
def features (X : (⟨2, ![262144, 4]⟩ : Shape).Idx → EReal) (E : (⟨2, ![625, 4]⟩ : Shape).Idx → EReal) :
    (⟨2, ![262144, 625]⟩ : Shape).Idx → EReal :=
  fun i => entry (fun d => X (ix2 (i 0) d)) (fun d => E (ix2 (i 1) d))

end Cert.PowerFeatures

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibLanes.lean ====
/-
  A matrix's column, or row, cut out with its unit axis kept and broadcast back over a block, read at an index given
  by coordinates, at any extents: column `o` of an `[a, n]` matrix as `[a, 1]` spread over `[a, b]` reads at `(p, c)`
  the matrix at `(p, o)`; row `o` of an `[n, b]` matrix as `[1, b]` spread over `[a, b]` reads at `(p, c)` the matrix at
  `(o, c)`. These are the two factors of an outer product written with broadcasts.
-/
import Idealize.ShloMosaic.Lib.Pipeline.Value
import Idealize.ShloMosaic.Lib.ValueIdx
import Idealize.ShloMosaic.Lib.ValueLayout
import proofs.«166084_j18966575579212_2_alg».proof.Proof.LibColumns

namespace Cert.Lib.Lanes

open Idealize.ShloMosaic Idealize.ShloMosaic.ValueIdx

variable {α : Type}

/-- Column `o` of an `[a, n]` matrix, cut out as `[a, 1]` and broadcast along its rows to `[a, b]`, reads at `(p, c)`
    the matrix at `(p, d)`, `d` the column `o`. -/
theorem colSlice_broadcast_apply {a n b : ℕ} (o : ℕ) (L : (⟨2, ![a, n]⟩ : Shape).Idx → α)
    (h₁ : (⟨2, ![a, n]⟩ : Shape).Slices ![0, o] ⟨2, ![a, 1]⟩)
    (h₂ : (⟨2, ![a, 1]⟩ : Shape).Broadcasts ⟨2, ![a, b]⟩) (p : Fin a) (c : Fin b) (d : Fin n) (hd : d.val = o) :
    broadcastTo ⟨2, ![a, b]⟩ (extractStridedSlice ⟨2, ![a, 1]⟩ ![0, o] L h₁) h₂ (ix2 p c) = L (ix2 p d) := by
  rw [Cert.Lib.Columns.broadcastTo_a1_ab_apply]
  exact slice2_axis1_apply o L h₁ p (0 : Fin 1) d (hd.trans (Nat.add_zero o).symm)

/-- Row `o` of an `[n, b]` matrix, cut out as `[1, b]` and broadcast over `a` rows to `[a, b]`, reads at `(p, c)` the
    matrix at `(d, c)`, `d` the row `o`. -/
theorem rowSlice_broadcast_apply {n b a : ℕ} (o : ℕ) (T : (⟨2, ![n, b]⟩ : Shape).Idx → α)
    (h₁ : (⟨2, ![n, b]⟩ : Shape).Slices ![o, 0] ⟨2, ![1, b]⟩)
    (h₂ : (⟨2, ![1, b]⟩ : Shape).Broadcasts ⟨2, ![a, b]⟩) (p : Fin a) (c : Fin b) (d : Fin n) (hd : d.val = o) :
    broadcastTo ⟨2, ![a, b]⟩ (extractStridedSlice ⟨2, ![1, b]⟩ ![o, 0] T h₁) h₂ (ix2 p c) = T (ix2 d c) := by
  rw [broadcastTo_1b_ab_apply]
  exact slice2_axis0_apply o T h₁ (0 : Fin 1) c d (hd.trans (Nat.add_zero o).symm)

end Cert.Lib.Lanes
-- ==== Proof.Payload.lean ====
/-
  The body's arithmetic, read at an index. The body handles its 4096-row block in four slices of 1024 rows; for each it
  clamps the slice of the data from below, takes logarithms, multiplies column `d` of the result (spread over 625 lanes)
  by row `d` of the transposed table (spread over 1024 rows) for `d = 0, 1, 2, 3`, adds the four products from the left
  and exponentiates. The four slices' terms are one term of the slice and the table; at `(r, k)` it is the entry of row
  `r` of the slice and column `k` of the table. A slice that starts at row `o` of the block therefore holds, at its local
  index, the block's function at the index shifted by `o`.
-/
import proofs.«166084_j18966575579212_2_alg».proof.Proof.Gen.KernelIdeal.Skeleton
import proofs.«166084_j18966575579212_2_alg».proof.Proof.Spec
import proofs.«166084_j18966575579212_2_alg».proof.Proof.LibLanes
import Idealize.ShloMosaic.Lib.ValueIdx
import Idealize.ShloMosaic.Lib.Pipeline.Value

noncomputable section

namespace Cert.PowerFeatures

open Idealize.ShloMosaic Idealize.ShloMosaic.ValueIdx Cert.KernelIdeal Cert.KernelIdeal.Gen

section AnyInstance
variable {F : FTy → Type} [FloatOps F]

/-- The first slice's term is the last slice's, the table read through its identity recast. -/
theorem pay3_eq (v0 : Vec F S4x625 .f32) (v5 : Vec F S1024x4 .f32) :
    k0_pay3 v0 v5 = k0_pay1 (k0_pay2 v0) v5 := rfl

/-- The second slice's term, stated in two parts (its first product, then the rest), is the same term again. -/
theorem pay6_eq (v0 : Vec F S4x625 .f32) (v38 : Vec F S1024x4 .f32) :
    k0_pay6 (k0_pay2 v0) (k0_pay4 v38) (k0_pay5 v0 v38) = k0_pay1 (k0_pay2 v0) v38 := rfl

/-- The third slice's term is the last slice's. -/
theorem pay7_eq (v1 : FVec F S4x625 .f32) (v71 : Vec F S1024x4 .f32) :
    k0_pay7 v1 v71 = k0_pay1 v1 v71 := rfl

end AnyInstance

/-- A slice's term at `(r, k)`: the entry of row `r` of the slice `x` and column `k` of the table `et`. Each factor is a
    column (or row) cut out and broadcast, read at its coordinates; what is left is the specification's own expression. -/
theorem chunk_apply (et : FVec Ideal S4x625 .f32) (x : Vec Ideal S1024x4 .f32) (r : Fin 1024) (k : Fin 625) :
    k0_pay1 (F := Ideal) et x (ix2 r k) = entry (fun d => x (ix2 r d)) (fun d => et (ix2 d k)) := by
  unfold k0_pay1
  dsimp only [exp, addf, mulf]
  rw [Cert.Lib.Lanes.colSlice_broadcast_apply 0 _ _ _ r k 0 rfl,
    Cert.Lib.Lanes.colSlice_broadcast_apply 1 _ _ _ r k 1 rfl,
    Cert.Lib.Lanes.colSlice_broadcast_apply 2 _ _ _ r k 2 rfl,
    Cert.Lib.Lanes.colSlice_broadcast_apply 3 _ _ _ r k 3 rfl,
    Cert.Lib.Lanes.rowSlice_broadcast_apply 0 _ _ _ r k 0 rfl,
    Cert.Lib.Lanes.rowSlice_broadcast_apply 1 _ _ _ r k 1 rfl,
    Cert.Lib.Lanes.rowSlice_broadcast_apply 2 _ _ _ r k 2 rfl,
    Cert.Lib.Lanes.rowSlice_broadcast_apply 3 _ _ _ r k 3 rfl]
  rfl

/-- The block: at `(r, k)` the entry of row `r` of the data block and column `k` of the transposed table. -/
def blockOf (x0 : Vec Ideal S4096x4 .f32) (x1 : Vec Ideal S4x625 .f32) : S4096x625.Idx → EReal :=
  fun y => entry (fun d => x0 (ix2 (y 0) d)) (fun d => x1 (ix2 d (y 1)))

theorem hz : (![0, 0] : Fin 2 → Nat) = fun _ => 0 := funext fun a => by fin_cases a <;> rfl

/-- The slice starting at row `o`: its term over the data rows `o … o + 1023` and the whole table, at a local index, is the
    block's function at that index placed at row offset `o` — a local row `r` is the block's row `o + r`, a lane is a lane. -/
theorem piece_apply (x0 : Vec Ideal S4096x4 .f32) (x1 : Vec Ideal S4x625 .f32) (o : ℕ)
    (inbX : ∀ a, (![o, 0] : Fin 2 → ℕ) a + (![1024, 4] : Fin 2 → ℕ) a ≤ S4096x4.size a)
    (inbE : ∀ a, (![0, 0] : Fin 2 → ℕ) a + S4x625.size a ≤ S4x625.size a)
    (inbO : ∀ a, (![o, 0] : Fin 2 → ℕ) a + (![1024, 625] : Fin 2 → ℕ) a ≤ S4096x625.size a)
    (x : S1024x625.Idx) :
    k0_pay1 (F := Ideal) (k0_pay2 (View.ld x1 (Rect.unit (s := S4x625) ![0, 0] S4x625.size inbE)))
        (View.ld x0 (Rect.unit (s := S4096x4) ![o, 0] ![1024, 4] inbX)) x
      = blockOf x0 x1 ((Rect.unit (s := S4096x625) ![o, 0] ![1024, 625] inbO).emb x) := by
  obtain ⟨r, k, rfl⟩ : ∃ (r : Fin 1024) (k : Fin 625), x = ix2 r k := ⟨x 0, x 1, eq_ix2 x⟩
  rw [chunk_apply, View.ld_unit_zero (S := S4x625) hz]
  unfold blockOf k0_pay2
  rw [shapeCast_self]
  refine congrArg₂ entry (funext fun d => ?_) (funext fun d => ?_)
  · show x0 ((Rect.unit (s := S4096x4) ![o, 0] ![1024, 4] inbX).idx (ix2 r d)) = x0 (ix2 _ d)
    refine congrArg x0 (funext fun a => Fin.ext ?_)
    match a with
    | ⟨0, _⟩ => rfl
    | ⟨1, _⟩ => show 0 + 1 * d.val = d.val; omega
  · refine congrArg x1 (funext fun a => Fin.ext ?_)
    match a with
    | ⟨0, _⟩ => rfl
    | ⟨1, _⟩ => show k.val = 0 + 1 * k.val; omega

end Cert.PowerFeatures

end
-- ==== Proof.Block.lean ====
/-
  What the body leaves in the output block. Its four stores write rows `0 … 1023`, `1024 … 2047`, `2048 … 3071` and
  `3072 … 4095` of the 4096 × 625 block; together they cover it, and each writes the block's one function — at `(r, k)`
  the entry of row `r` of the data block and column `k` of the table — restricted to its rows. So the block ends holding
  that function, whatever it held before.
-/
import proofs.«166084_j18966575579212_2_alg».proof.Proof.Gen.KernelIdeal.Frame
import proofs.«166084_j18966575579212_2_alg».proof.Proof.Payload
import Idealize.ShloMosaic.Lib.Pipeline.Value
import Idealize.ShloMosaic.Lib.Tactic

set_option maxRecDepth 16384

noncomputable section

namespace Cert.PowerFeatures

open Idealize.ShloMosaic Idealize.ShloMosaic.TcCoe Idealize.ShloMosaic.Tactic Idealize.ShloMosaic.ValueIdx
open Cert.KernelIdeal Cert.KernelIdeal.Gen Idealize.SL.Sem

/-- The output block after the body, from the data block `x0` and the table block `x1` the body found in its input
    buffers: every one of the four pieces is the block's function on its rows, and the pieces cover the block. -/
theorem out_eq (c : Dev nD) (i : grid0.Coords) (arg1 : Memref sig .tc .vmem S4096x4 .f32) (harg1 : arg1.IsWhole)
    (arg2 : Memref sig .tc .vmem S4x625 .f32) (harg2 : arg2.IsWhole) (arg3 : Memref sig .tc .vmem S4096x625 .f32) (harg3 : arg3.IsWhole)
    (x0 : Vec Ideal S4096x4 .f32) (x1 : Vec Ideal S4x625 .f32) :
    out0_A_2 (F := Ideal) c i arg1 harg1 arg2 harg2 arg3 harg3 x0 x1 = blockOf x0 x1 := by
  unfold out0_A_2
  rw [View.read_writes_eq_canon _ _ _ (cover0_A_2 c i arg1 harg1 arg2 harg2 arg3 harg3 x0 x1)]
  funext y
  refine View.canon_apply_of_pieces (blockOf x0 x1) _ ?_ y (cover0_A_2 c i arg1 harg1 arg2 harg2 arg3 harg3 x0 x1 y)
  unfold kernelRun0_A
  dsimp only
  sl_unfold_words
  intro p hp
  simp only [List.mem_cons, List.mem_singleton, List.not_mem_nil, or_false] at hp
  rcases hp with rfl | rfl | rfl | rfl <;> intro x <;> dsimp only at x ⊢ <;>
    simp only [View.readAt_eq_ld, harg1.read_unread, harg2.read_unread]
  · exact piece_apply x0 x1 3072 _ _ _ x
  · rw [pay7_eq]; exact piece_apply x0 x1 2048 _ _ _ x
  · rw [pay6_eq]; exact piece_apply x0 x1 1024 _ _ _ x
  · rw [pay3_eq]; exact piece_apply x0 x1 0 _ _ _ x

end Cert.PowerFeatures

end
-- ==== Proof.Array.lean ====
/-
  From blocks to the array. The grid has 64 points; point `t` stages rows `4096 t … 4096 t + 4095` of the data, the whole
  transposed table (the host wrote it before the region: `ET[d, k] = E[k, d]`), and writes back rows
  `4096 t … 4096 t + 4095` of the result. What it writes back is the block's function of its two input blocks, which is
  the result's one function — at `(b, k)` the entry of row `b` of `X` and row `k` of `E` — read through the block: a local
  row `r` is the array's row `4096 t + r`, and column `k` of the transposed table is row `k` of `E`. The 64 blocks tile the
  array (row `b` lies in block `b / 4096`), so the array ends holding that function.
-/
import proofs.«166084_j18966575579212_2_alg».proof.Proof.Gen.KernelIdeal.Value
import proofs.«166084_j18966575579212_2_alg».proof.Proof.Block
import Idealize.ShloMosaic.Lib.Pipeline.Value
import Idealize.ShloMosaic.Lib.ValueLayout
import Idealize.ShloMosaic.Lib.StableHlo.Run

set_option maxRecDepth 16384

noncomputable section

namespace Cert.PowerFeatures

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The table as the region finds it: the transpose of the argument `E`, which the host wrote before the region. -/
theorem V_table (c : Dev nD) :
    (V m c main_v0 : S4x625.Idx → EReal)
      = transpose S4x625 [1, 0] (m ((c : Thread nD τ).loc main_arg1)) transposes_S625x4_S4x625_1_0 := by
  dsimp only [Gen.V, Gen.hostOps0]
  after_results

/-- The printed index maps over the 64 points: the data and the result move with the point along the rows, the table
    stays, and every column index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the result's function of the two arguments. -/
theorem flushed_eq (c : Dev nD) (t : Fin cfg0.N) :
    (dats m 0 c).flushed 2 t = ((cfg0.win 2).blk t).view.read (Elt Ideal)
      (features (m ((c : Thread nD τ).loc main_arg0)) (m ((c : Thread nD τ).loc main_arg1))) := by
  rw [Cert.KernelIdeal.Value.flushed2_A, out_eq]
  obtain ⟨e00, e01, e10, e11, e20, e21⟩ := idx_facts t
  funext j
  show blockOf (iblk m c 0 t) (iblk m c 1 t) j = features _ _ (((cfg0.win 2).blk t).view.emb j)
  unfold blockOf features
  refine congrArg₂ entry (funext fun d => ?_) (funext fun d => ?_)
  · show V m c main_arg0 (((cfg0.win 0).blk t).view.emb (ix2 (j 0) d))
      = m ((c : Thread nD τ).loc main_arg0) (ix2 ((((cfg0.win 2).blk t).view.emb j) 0) d)
    rw [V_main_arg0]
    refine congrArg _ (funext fun a => Fin.ext ?_)
    match a with
    | ⟨0, _⟩ =>
      show win0_0.index t (0 : Fin 2) * 4096 + 1 * (j 0).val = win0_2.index t (0 : Fin 2) * 4096 + 1 * (j 0).val
      omega
    | ⟨1, _⟩ =>
      show win0_0.index t (1 : Fin 2) * 4 + 1 * d.val = d.val
      omega
  · have hidx : ((cfg0.win 1).blk t).view.emb (ix2 d (j 1)) = ix2 d ((((cfg0.win 2).blk t).view.emb j) 1) := by
      funext a; apply Fin.ext
      match a with
      | ⟨0, _⟩ =>
        show win0_1.index t (0 : Fin 2) * 4 + 1 * d.val = d.val
        omega
      | ⟨1, _⟩ =>
        show win0_1.index t (1 : Fin 2) * 625 + 1 * (j 1).val = win0_2.index t (1 : Fin 2) * 625 + 1 * (j 1).val
        omega
    refine (congrArg (V m c main_v0 : S4x625.Idx → EReal) hidx).trans ?_
    rw [V_table]
    exact transpose_ix2_apply _ _ _ _

/-- An index of the result array is in point `t`'s block iff each coordinate is in the block's range on its axis. -/
theorem mem_blk (t : Fin cfg0.N) (i : S262144x625.Idx) :
    i ∈ ((cfg0.win 2).blk t).view.set ↔ ∀ a : Fin 2, win0_2.index t a * S4096x625.size a ≤ (i a).val
      ∧ (i a).val < win0_2.index t a * S4096x625.size a + S4096x625.size a := by
  show i ∈ ((View.whole main_v1).slice (win0_2.rect t)).set ↔ _
  rw [View.set_slice_whole, Rect.mem_set_unit]
  exact Iff.rfl

/-- The result array after the run is the result's function of the two arguments: row `b` is written by point `b / 4096`. -/
theorem final (c : Dev nD) :
    (dats m 0 c).arrAt 2 cfg0.N
      = features (m ((c : Thread nD τ).loc main_arg0)) (m ((c : Thread nD τ).loc main_arg1)) :=
  (dats m 0 c).arrAt_eq_of_cover 2 _ (fun t _ => flushed_eq m c t) fun i => by
    have hi0 : (i 0).val < 262144 := (i 0).isLt
    have hi1 : (i 1).val < 625 := (i 1).isLt
    have hN : cfg0.N = 64 := N_0
    have ht : (i 0).val / 4096 < cfg0.N := by rw [hN]; omega
    refine ⟨⟨(i 0).val / 4096, ht⟩, flush0_2 _, ?_⟩
    rw [mem_blk]
    obtain ⟨-, -, -, -, e20, e21⟩ := idx_facts ⟨(i 0).val / 4096, ht⟩
    intro a
    match a with
    | ⟨0, _⟩ =>
      show win0_2.index ⟨(i 0).val / 4096, ht⟩ (0 : Fin 2) * 4096 ≤ (i 0).val
        ∧ (i 0).val < win0_2.index ⟨(i 0).val / 4096, ht⟩ (0 : Fin 2) * 4096 + 4096
      rw [e20]
      show (i 0).val / 4096 * 4096 ≤ (i 0).val ∧ (i 0).val < (i 0).val / 4096 * 4096 + 4096
      omega
    | ⟨1, _⟩ =>
      show win0_2.index ⟨(i 0).val / 4096, ht⟩ (1 : Fin 2) * 625 ≤ (i 1).val
        ∧ (i 1).val < win0_2.index ⟨(i 0).val / 4096, ht⟩ (1 : Fin 2) * 625 + 625
      omega

/-- The kernel's run, read: the result array at the result's function of the arguments, the arguments unchanged. -/
theorem run : θ_run defs (onTc (τ := τ) (main (F := Ideal))) ⟨m, fun _ => 0, ρ⟩ fun r => ∀ c : Dev nD,
      r.2.mem ((c : Thread nD τ).loc main_v1)
        = features (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.PowerFeatures

end
-- ==== Proof.RefSide.lean ====
/-
  The reference computes the same function. Its last stage at `(b, k)` is the exponential of a contraction over the four
  columns: `Σ_d log (max X[b, d] c) · E[k, d]`, the clamp constant broadcast from a scalar. A sum over four indices is the
  four terms added from the left, which is how the specification's entry is written.
-/
import proofs.«166084_j18966575579212_2_alg».proof.Proof.Gen.ReferenceIdeal.Read
import proofs.«166084_j18966575579212_2_alg».proof.Proof.Spec

noncomputable section

open scoped BigOperators

namespace Cert.PowerFeatures

open Idealize.ShloMosaic Idealize.ShloMosaic.ValueIdx Cert.ReferenceIdeal Cert.ReferenceIdeal.Read

/-- The reference's result stage is the result's function of the two arguments, index by index. -/
theorem reference_eq (x0 : (⟨S262144x4, .f32⟩ : BufTy).Contents (Elt Ideal)) (x1 : (⟨S625x4, .f32⟩ : BufTy).Contents (Elt Ideal)) :
    val_main_v4 (F := Ideal) x0 x1 = features x0 x1 := by
  funext i
  have hl : ∀ k : Fin 4, lidx_main_v3 i k = ix2 (i 0) k := fun k => funext fun a => Fin.ext (by
    match a with | ⟨0, _⟩ => rfl | ⟨1, _⟩ => rfl)
  have hr : ∀ k : Fin 4, ridx_main_v3 i k = ix2 (i 1) k := fun k => funext fun a => Fin.ext (by
    match a with | ⟨0, _⟩ => rfl | ⟨1, _⟩ => rfl)
  rw [val_main_v4_apply, val_main_v3_apply]
  unfold features
  rw [entry_eq_sum]
  simp only [hl, hr, val_main_v2_apply, val_main_v1_apply, val_main_v0_apply, val_main_cst_apply,
    Ideal.hostUnary_exp_def, Ideal.hostUnary_log_def, Ideal.maximumf_def, Ideal.ofBits_def]
  rfl

end Cert.PowerFeatures

end
-- ==== Proof.lean ====
/-
  The kernel against its reference: `exp (log (max X c) · Eᵀ)`, that is, at `(b, k)` the product over the four columns `d` of
  `max X[b, d] c` raised to the power `E[k, d]`, written through logarithms, over the extended reals.

  The kernel tiles the 262144 rows into 64 blocks of 4096, handles each block in four slices of 1024 rows, and contracts the
  four columns by four broadcast multiplications added from the left against the host-transposed table; the reference
  clamps, takes logarithms, contracts the four columns in one product of matrices and exponentiates. The contraction over
  four indices IS the four products added from the left, so both arrays are one function of the arguments, entry by entry
  (`Cert.PowerFeatures.features`), with no law of the extended reals beyond unfolding a four-term sum, and the finiteness of
  the inputs is not used.

    Spec      the entry and the whole-array function, and the four-term sum
    Payload   a slice's arithmetic at an index; a slice at row offset `o` is the block's function there
    Block     the four stores cover the output block, which ends at the block's function
    Array     point `t` writes back block `t` of the function; the blocks tile the array; the kernel's run
    RefSide   the reference's last stage is the function

  The three frames are the generated frame runs; the idealization rewrote nothing.
-/
import proofs.«166084_j18966575579212_2_alg».proof.Defs
import proofs.«166084_j18966575579212_2_alg».proof.Proof.Gen.Kernel
import proofs.«166084_j18966575579212_2_alg».proof.Proof.Gen.Kernel.Skeleton
import proofs.«166084_j18966575579212_2_alg».proof.Proof.Gen.Kernel.Launch
import proofs.«166084_j18966575579212_2_alg».proof.Proof.Gen.Kernel.Points
import proofs.«166084_j18966575579212_2_alg».proof.Proof.Gen.Kernel.Frame
import proofs.«166084_j18966575579212_2_alg».proof.Proof.Gen.KernelIdeal
import proofs.«166084_j18966575579212_2_alg».proof.Proof.Gen.KernelIdeal.Skeleton
import proofs.«166084_j18966575579212_2_alg».proof.Proof.Gen.KernelIdeal.Launch
import proofs.«166084_j18966575579212_2_alg».proof.Proof.Gen.KernelIdeal.Points
import proofs.«166084_j18966575579212_2_alg».proof.Proof.Gen.KernelIdeal.Frame
import proofs.«166084_j18966575579212_2_alg».proof.Proof.Gen.ReferenceIdeal
import proofs.«166084_j18966575579212_2_alg».proof.Proof.Gen.Pre_finite_inputs
import proofs.«166084_j18966575579212_2_alg».proof.Proof.Gen.KernelIdeal.Value
import proofs.«166084_j18966575579212_2_alg».proof.Proof.Gen.ReferenceIdeal.Run
import proofs.«166084_j18966575579212_2_alg».proof.Proof.Gen.ReferenceIdeal.Read
import proofs.«166084_j18966575579212_2_alg».proof.Proof.Array
import proofs.«166084_j18966575579212_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `X` and `E` both programs end with the result array at the one function of `X` and `E`. -/
theorem algebraic : Cert.algebraic_KernelIdeal_ReferenceIdeal := by
  intro m ρ m' ρ' _ hagree
  refine ⟨fun c => Cert.PowerFeatures.features
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PowerFeatures.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.PowerFeatures.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
